-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : FVec F S50000x128 .f32) (main_arg2 : IVec S2x1000000 32) (main_arg3 : FVec F S128x256 .f32) (main_arg4 : FVec F S128 .f32) (main_arg5 : FVec F S1x128 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1015808 : Shape := ⟨1, ![1015808]⟩
abbrev S1015808x1 : Shape := ⟨2, ![1015808, 1]⟩
abbrev S1015808x128 : Shape := ⟨2, ![1015808, 128]⟩
abbrev S128x128 : Shape := ⟨2, ![128, 128]⟩
abbrev S128x1 : Shape := ⟨2, ![128, 1]⟩
abbrev S16384x128 : Shape := ⟨2, ![16384, 128]⟩
abbrev S16384x1 : Shape := ⟨2, ![16384, 1]⟩
abbrev S1x1 : Shape := ⟨2, ![1, 1]⟩
abbrev S1000000x1 : Shape := ⟨2, ![1000000, 1]⟩

abbrev nBuf : Space → Nat
  | .hbm => 48
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S_, .i32⟩
  | .hbm, ⟨13, _⟩ => ⟨S1015808, .i32⟩
  | .hbm, ⟨14, _⟩ => ⟨S_, .i32⟩
  | .hbm, ⟨15, _⟩ => ⟨S_, .i32⟩
  | .hbm, ⟨16, _⟩ => ⟨S1015808, .i32⟩
  | .hbm, ⟨17, _⟩ => ⟨S100000x128, .bf16⟩
  | .hbm, ⟨18, _⟩ => ⟨S50000x128, .bf16⟩
  | .hbm, ⟨19, _⟩ => ⟨S_, .i32⟩
  | .hbm, ⟨20, _⟩ => ⟨S1015808, .i32⟩
  | .hbm, ⟨21, _⟩ => ⟨S1015808, .i1⟩
  | .hbm, ⟨22, _⟩ => ⟨S_, .i32⟩
  | .hbm, ⟨23, _⟩ => ⟨S1015808, .i32⟩
  | .hbm, ⟨24, _⟩ => ⟨S1015808, .i32⟩
  | .hbm, ⟨25, _⟩ => ⟨S1015808, .i32⟩
  | .hbm, ⟨26, _⟩ => ⟨S1015808x1, .i32⟩
  | .hbm, ⟨27, _⟩ => ⟨S1015808x128, .bf16⟩
  | .hbm, ⟨28, _⟩ => ⟨S_, .i32⟩
  | .hbm, ⟨29, _⟩ => ⟨S1015808, .i32⟩
  | .hbm, ⟨30, _⟩ => ⟨S1015808, .i1⟩
  | .hbm, ⟨31, _⟩ => ⟨S_, .i32⟩
  | .hbm, ⟨32, _⟩ => ⟨S1015808, .i32⟩
  | .hbm, ⟨33, _⟩ => ⟨S1015808, .i32⟩
  | .hbm, ⟨34, _⟩ => ⟨S1015808, .i32⟩
  | .hbm, ⟨35, _⟩ => ⟨S1015808x1, .i32⟩
  | .hbm, ⟨36, _⟩ => ⟨S1015808x128, .bf16⟩
  | .hbm, ⟨37, _⟩ => ⟨S128x128, .f32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .f32⟩
  | .hbm, ⟨42, _⟩ => ⟨S128x128, .bf16⟩
  | .hbm, ⟨43, _⟩ => ⟨S128x1, .f32⟩
  | .hbm, ⟨44, _⟩ => ⟨S128x1, .bf16⟩
  | .hbm, ⟨45, _⟩ => ⟨S1015808x1, .f32⟩
  | .hbm, ⟨46, _⟩ => ⟨S1000000x1, .f32⟩
  | .hbm, ⟨47, _⟩ => ⟨S1000000, .f32⟩
  | .local _ .vmem, ⟨0, _⟩ => ⟨S16384x128, .bf16⟩
  | .local _ .vmem, ⟨1, _⟩ => ⟨S16384x128, .bf16⟩
  | .local _ .vmem, ⟨2, _⟩ => ⟨S16384x128, .bf16⟩
  | .local _ .vmem, ⟨3, _⟩ => ⟨S16384x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S128x1, .bf16⟩
  | .local _ .vmem, ⟨8, _⟩ => ⟨S1, .f32⟩
  | .local _ .vmem, ⟨9, _⟩ => ⟨S16384x1, .f32⟩
  | .local _ .vmem, ⟨10, _⟩ => ⟨S16384x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  pads_S1000000_S1015808_0158080 : S1000000.Pads (![0] : Fin 1 → Nat) ![15808] ![0] S1015808
  h_S_ : 0 < S_.numel
  bitsLt_bf16_f32 : FTy.bits .bf16 < FTy.bits .f32
  bcast_S_S1015808 : S_.BroadcastsInDim S1015808 (![] : Fin 0 → Fin S1015808.rank)
  bcast_S1015808_S1015808x1_0 : S1015808.BroadcastsInDim S1015808x1 (![0] : Fin 1 → Fin S1015808x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  transposes_S1x128_S128x1_1_0 : S1x128.Transposes [1, 0] S128x1
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S128_S1x128 : S128.ShapeCasts S1x128
  broadcasts_S1x128_S16384x128 : S1x128.Broadcasts S16384x128
  shapeCasts_S1_S1x1 : S1.ShapeCasts S1x1
  broadcasts_S1x1_S16384x1 : S1x1.Broadcasts S16384x1
  inb_S16384x1_S16384x1_0_0 : ∀ a, (![0, 0] : Fin 2 → Nat) a + S16384x1.size a ≤ S16384x1.size a
  h_S16384x1 : 0 < S16384x1.numel
  slices_S1015808x1_S1000000x1_0_0 : S1015808x1.Slices ![0, 0] S1000000x1
  shapeCasts_S1000000x1_S1000000 : S1000000x1.ShapeCasts S1000000
  gather_S100000x128_S1015808x1_S1015808x128_1_0_n_n_0_1_1128_wf : GatherDims.WF S100000x128 S1015808x1 S1015808x128 [1] [0] [] [0] [] 1 ![1, 128]
  gather_S50000x128_S1015808x1_S1015808x128_1_0_n_n_0_1_1128_wf : GatherDims.WF S50000x128 S1015808x1 S1015808x128 [1] [0] [] [0] [] 1 ![1, 128]
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1015808x128.size a
  hwx0_0 : ∀ i : grid0.Coords, EltTy.bits .bf16 = 32 ∨ (Rect.block (s := S1015808x128) S16384x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S1015808x128.size a
  hwx0_1 : ∀ i : grid0.Coords, EltTy.bits .bf16 = 32 ∨ (Rect.block (s := S1015808x128) S16384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16384x1.size a ≤ S1015808x1.size a
  hwx0_7 : ∀ i : grid0.Coords, EltTy.bits .f32 = 32 ∨ (Rect.block (s := S1015808x1) S16384x1.size (cc0_transform_7 i) (hinb0_7 i)).WholeWords (EltTy.packing .f32)

variable [Facts₀]

def gather_S100000x128_S1015808x1_S1015808x128_1_0_n_n_0_1_1128 : GatherDims S100000x128 S1015808x1 S1015808x128 where
  offsetDims := [1]
  collapsedSliceDims := [0]
  operandBatchingDims := []
  startIndicesBatchingDims := []
  startIndexMap := [0]
  indexVectorDim := 1
  sliceSizes := ![1, 128]
  wf := gather_S100000x128_S1015808x1_S1015808x128_1_0_n_n_0_1_1128_wf
def gather_S50000x128_S1015808x1_S1015808x128_1_0_n_n_0_1_1128 : GatherDims S50000x128 S1015808x1 S1015808x128 where
  offsetDims := [1]
  collapsedSliceDims := [0]
  operandBatchingDims := []
  startIndicesBatchingDims := []
  startIndexMap := [0]
  indexVectorDim := 1
  sliceSizes := ![1, 128]
  wf := gather_S50000x128_S1015808x1_S1015808x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

abbrev win0_0 : Pipeline.Window sig grid0 :=
  Pipeline.Window.ofSpec (Memref.whole main_v14) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S16384x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x128, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S1000000x256, .f32⟩
  | .hbm, ⟨30, _⟩ => ⟨S256x128, .f32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S128x1, .f32⟩
  | .hbm, ⟨39, _⟩ => ⟨S1000000x1, .f32⟩
  | .hbm, ⟨40, _⟩ => ⟨S1x1, .f32⟩
  | .hbm, ⟨41, _⟩ => ⟨S1000000x1, .f32⟩
  | .hbm, ⟨42, _⟩ => ⟨S1000000x1, .f32⟩
  | .hbm, ⟨43, _⟩ => ⟨S1000000x1, .f32⟩
  | .hbm, ⟨44, _⟩ => ⟨S1000000x1, .f32⟩
  | .hbm, ⟨45, _⟩ => ⟨S_, .f32⟩
  | .hbm, ⟨46, _⟩ => ⟨S1000000x1, .f32⟩
  | .hbm, ⟨47, _⟩ => ⟨S1000000x1, .f32⟩
  | .hbm, ⟨48, _⟩ => ⟨S_, .f32⟩
  | .hbm, ⟨49, _⟩ => ⟨S1000000x1, .f32⟩
  | .hbm, ⟨50, _⟩ => ⟨S1000000x1, .f32⟩
  | .hbm, ⟨51, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  transposes_S128x256_S256x128_1_0 : S128x256.Transposes [1, 0] S256x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S1x128_S128x1_1_0 : S1x128.Transposes [1, 0] S128x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.EdgeScore.lean ====
/-
  The edge decoder, as mathematics.  Every edge `e` carries a source row and a destination row, taken from two
  embedding tables by an integer index pair; the score of the edge is

      σ( Σ_j relu( Σ_k zs_k · W1[j, k]  +  Σ_k zd_k · W1[j, 128 + k]  +  b1_j ) · W2[0, j]  +  b2 )

  with `zs`, `zd` the two gathered rows, `relu x = max x 0` and `σ` the logistic function on the extended reals.
  The 256-wide contraction of the concatenated row `[zs, zd]` against a row of `W1` is the sum of its two 128-wide
  halves (`sum_halves`): addition of extended reals is commutative and associative, so no finiteness is needed.
  An index is read as a signed word; a negative one counts from the end of the table (the table's length is added),
  and the result is clamped into the table (`tableRow`).
-/
import Idealize.ShloMosaic.PureOps.Ideal
import Idealize.ShloMosaic.Lib.ValueIdx

noncomputable section

open scoped BigOperators

namespace Cert.EdgeScore

open Idealize.ShloMosaic Idealize.ShloMosaic.ValueIdx

/-- A row index as written: a negative word has the table's length `n` added to it. -/
def wrapIdx (n w : BitVec 32) : BitVec 32 :=
  Scalar.select (IntOp.cmpi .slt w 0#32) (IntOp.addi w n) w

/-- The row of a table of `N` rows that the index word `w` selects: wrapped, read signed, clamped to the last row. -/
def tableRow (N : Nat) (hN : 0 < N) (n w : BitVec 32) : Fin N :=
  ⟨min (wrapIdx n w).toInt.toNat (N - 1), by omega⟩

/-- The score of one edge from its two gathered rows `zs`, `zd`, the two halves `ws`, `wd` of the first layer's
    weights (indexed input × output), its bias `b1`, the second layer's weights `w2` and bias `b2`. -/
def edgeScore (zs zd : Fin 128 → EReal) (ws wd : Fin 128 → Fin 128 → EReal) (b1 w2 : Fin 128 → EReal) (b2 : EReal) : EReal :=
  Ideal.logistic ((∑ j : Fin 128,
      max ((∑ k : Fin 128, zs k * ws k j) + (∑ k : Fin 128, zd k * wd k j) + b1 j) (Ideal.ofBits .f32 0x00000000#32) * w2 j) + b2)

/-- The lower half of a 256-long axis. -/
abbrev lo256 (k : Fin 128) : Fin 256 := ⟨k.val, by omega⟩
/-- The upper half of a 256-long axis. -/
abbrev hi256 (k : Fin 128) : Fin 256 := ⟨128 + k.val, by omega⟩

/-- A sum over 256 terms is the sum of its lower and upper halves. -/
theorem sum_halves {M : Type*} [AddCommMonoid M] (f : Fin 256 → M) :
    ∑ k : Fin 256, f k = (∑ k : Fin 128, f (lo256 k)) + ∑ k : Fin 128, f (hi256 k) := by
  have h := Fin.sum_univ_add (a := 128) (b := 128) (f : Fin (128 + 128) → M)
  refine h.trans ?_
  congr 1

/-- The whole result: edge `e`'s score from the argument arrays — the embedding tables `x0` (100000 rows) and `x1`
    (50000 rows), the index pairs `x2`, the first layer `x3` (128 × 256) and `x4`, the second layer `x5` (1 × 128) and `x6`. -/
def scores (x0 : (⟨2, ![100000, 128]⟩ : Shape).Idx → EReal) (x1 : (⟨2, ![50000, 128]⟩ : Shape).Idx → EReal)
    (x2 : (⟨2, ![2, 1000000]⟩ : Shape).Idx → BitVec 32) (x3 : (⟨2, ![128, 256]⟩ : Shape).Idx → EReal)
    (x4 : (⟨1, ![128]⟩ : Shape).Idx → EReal) (x5 : (⟨2, ![1, 128]⟩ : Shape).Idx → EReal)
    (x6 : (⟨1, ![1]⟩ : Shape).Idx → EReal) : (⟨1, ![1000000]⟩ : Shape).Idx → EReal := fun i =>
  edgeScore (fun k => x0 (ix2 (tableRow 100000 (by decide) 100000#32 (x2 (ix2 (0 : Fin 2) (i 0)))) k))
    (fun k => x1 (ix2 (tableRow 50000 (by decide) 50000#32 (x2 (ix2 (1 : Fin 2) (i 0)))) k))
    (fun k j => x3 (ix2 j (lo256 k))) (fun k j => x3 (ix2 j (hi256 k)))
    (fun j => x4 (ix1 j)) (fun j => x5 (ix2 (0 : Fin 1) j)) (x6 (ix1 (0 : Fin 1)))

end Cert.EdgeScore

end
-- ==== Proof.GatherRows.lean ====
/-
  A gather of whole rows of a two-dimensional table, read at one element.

  The table has `N` rows of `C` entries; the start indices form a column of `R` words, one per result row; result
  row `e` is the table's row at the `e`-th word, read as a signed integer and clamped into `[0, N - 1]` (the slice
  is one whole row, so on the row axis it fits exactly when the start is at most `N - 1`; on the column axis the
  start is `0` and the offset is the result's column).
-/
import Idealize.ShloMosaic.PureOps.Ideal
import Idealize.ShloMosaic.Lib.ValueIdx

noncomputable section

namespace Cert.GatherRows

open Idealize.ShloMosaic Idealize.ShloMosaic.ValueIdx

variable {α : Type}

/-- The dimension numbers of a whole-row gather: the result's axis 1 is the offset axis, the table's axis 0 is
    collapsed and is the one the start index names, the index vector lies along axis 1 of the start indices, and a
    slice is `1 × C`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Element `(e, k)` of a whole-row gather is the table at row "the `e`-th start word, signed, clamped to the last
    row" and column `k`. -/
theorem gather_rowDims_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowDims N R C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    -- the row axis: collapsed, not batching; the start is the clamped start word
    show (rowDims N R C wf).start (ix2 e k) idx 0 + (rowDims N R C wf).batchCoord (ix2 e k) 0
        + (rowDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e k) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not named by the start index, not batching; the offset is the result's column
    show (rowDims N R C wf).start (ix2 e k) idx 1 + (rowDims N R C wf).batchCoord (ix2 e k) 1
        + (rowDims N R C wf).offCoord (ix2 e k) 1 = k.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

/-- The same for any record with these dimension numbers (each hypothesis holds by `rfl` at a literal record). -/
theorem gather_rows_apply {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (k : Fin C) :
    Host.gather d x idx (ix2 e k)
      = x (ix2 ⟨min (idx (ix2 e (0 : Fin 1))).toInt.toNat (N - 1), by omega⟩ k) := by
  obtain ⟨od, cd, ob, sb, sm, iv, ss, wf⟩ := d
  simp only at h1 h2 h3 h4 h5 h6 h7
  subst h1 h2 h3 h4 h5 h6 h7
  exact gather_rowDims_apply hN wf x idx e k

end Cert.GatherRows

end
-- ==== Proof.RefScore.lean ====
/-
  The reference program computes the edge score.

  Read one operation at a time, element `e` of the reference's result is: the two index words of edge `e` (row 0 and
  row 1 of the index pairs), each with the table's length added when negative; the two table rows they select, clamped
  into the table; the two rows laid side by side into one 256-long row; that row against each of the 128 rows of the
  first layer's weights, plus the bias, cut off below at zero; the 128 results against the second layer's weights, plus
  its bias; and `1 / (1 + exp (-·))` of that. The 256-long contraction is split into its two 128-long halves, the
  lower half meeting the source row and the upper half the destination row, and `1 / (1 + exp (-x))` is the logistic
  function by definition; the result is the specification's `scores`.
-/
import proofs.«138349_j46815143526428_2_alg».proof.Proof.Gen.ReferenceIdeal.Read
import proofs.«138349_j46815143526428_2_alg».proof.Proof.EdgeScore
import proofs.«138349_j46815143526428_2_alg».proof.Proof.GatherRows
import Idealize.ShloMosaic.Lib.IdealHost

noncomputable section

open scoped BigOperators

namespace Cert.ReferenceIdeal.RefScore

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.EdgeScore

/-! ## The index words -/

/-- The source word of edge `e`, as the reference selects it: row 0 of the index pairs at `e`, wrapped by 100000. -/
theorem srcWord (x2 : (⟨S2x1000000, .i32⟩ : BufTy).Contents (Elt Ideal)) (e : Fin 1000000) :
    val_main_v8 (F := Ideal) x2 (ix1 e) = wrapIdx 100000#32 (x2 (ix2 (0 : Fin 2) e)) := by
  have hi : idx_main_v0 (idx_main_v1 (ix1 e)) = ix2 (0 : Fin 2) e := funext fun a => Fin.ext (by
    match a with
    | ⟨0, _⟩ => rfl
    | ⟨1, _⟩ => exact Nat.mod_eq_of_lt e.isLt)
  rw [val_main_v8_apply, val_main_v5_apply, val_main_v7_apply, val_main_v4_apply, val_main_c_apply, val_main_v6_apply,
    val_main_c_0_apply, val_main_v1_apply, val_main_v0_apply, hi]
  rfl

/-- The destination word of edge `e`: row 1 of the index pairs at `e`, wrapped by 50000. -/
theorem dstWord (x2 : (⟨S2x1000000, .i32⟩ : BufTy).Contents (Elt Ideal)) (e : Fin 1000000) :
    val_main_v15 (F := Ideal) x2 (ix1 e) = wrapIdx 50000#32 (x2 (ix2 (1 : Fin 2) e)) := by
  have hi : idx_main_v2 (idx_main_v3 (ix1 e)) = ix2 (1 : Fin 2) e := funext fun a => Fin.ext (by
    match a with
    | ⟨0, _⟩ => rfl
    | ⟨1, _⟩ => exact Nat.mod_eq_of_lt e.isLt)
  rw [val_main_v15_apply, val_main_v12_apply, val_main_v14_apply, val_main_v11_apply, val_main_c_1_apply, val_main_v13_apply,
    val_main_c_2_apply, val_main_v3_apply, val_main_v2_apply, hi]
  rfl

/-! ## The two gathered rows -/

/-- Entry `k` of the source row gathered for edge `e`: the first table at the row the source word selects. -/
theorem srcRow (x0 : (⟨S100000x128, .f32⟩ : BufTy).Contents (Elt Ideal)) (x2 : (⟨S2x1000000, .i32⟩ : BufTy).Contents (Elt Ideal))
    (e : Fin 1000000) (k : Fin 128) :
    val_main_v10 (F := Ideal) x0 x2 (ix2 e k)
      = x0 (ix2 (tableRow 100000 (by decide) 100000#32 (x2 (ix2 (0 : Fin 2) e))) k) := by
  have hi : idx_main_v9 (ix2 e (0 : Fin 1)) = ix1 e := funext fun a => Fin.ext (by match a with | ⟨0, _⟩ => rfl)
  unfold val_main_v10
  refine (Cert.GatherRows.gather_rows_apply (by decide) _ rfl rfl rfl rfl rfl rfl rfl x0 _ e k).trans ?_
  have hw : val_main_v9 (F := Ideal) x2 (ix2 e (0 : Fin 1)) = wrapIdx 100000#32 (x2 (ix2 (0 : Fin 2) e)) := by
    rw [val_main_v9_apply, hi, srcWord]
  refine congrArg x0 (congrArg (fun r : Fin 100000 => (ix2 r k : S100000x128.Idx)) (Fin.ext ?_))
  show min (BitVec.toInt (val_main_v9 (F := Ideal) x2 (ix2 e (0 : Fin 1)))).toNat (100000 - 1)
    = min (BitVec.toInt (wrapIdx 100000#32 (x2 (ix2 (0 : Fin 2) e)))).toNat (100000 - 1)
  rw [hw]

/-- Entry `k` of the destination row gathered for edge `e`: the second table at the row the destination word selects. -/
theorem dstRow (x1 : (⟨S50000x128, .f32⟩ : BufTy).Contents (Elt Ideal)) (x2 : (⟨S2x1000000, .i32⟩ : BufTy).Contents (Elt Ideal))
    (e : Fin 1000000) (k : Fin 128) :
    val_main_v17 (F := Ideal) x1 x2 (ix2 e k)
      = x1 (ix2 (tableRow 50000 (by decide) 50000#32 (x2 (ix2 (1 : Fin 2) e))) k) := by
  have hi : idx_main_v16 (ix2 e (0 : Fin 1)) = ix1 e := funext fun a => Fin.ext (by match a with | ⟨0, _⟩ => rfl)
  unfold val_main_v17
  refine (Cert.GatherRows.gather_rows_apply (by decide) _ rfl rfl rfl rfl rfl rfl rfl x1 _ e k).trans ?_
  have hw : val_main_v16 (F := Ideal) x2 (ix2 e (0 : Fin 1)) = wrapIdx 50000#32 (x2 (ix2 (1 : Fin 2) e)) := by
    rw [val_main_v16_apply, hi, dstWord]
  refine congrArg x1 (congrArg (fun r : Fin 50000 => (ix2 r k : S50000x128.Idx)) (Fin.ext ?_))
  show min (BitVec.toInt (val_main_v16 (F := Ideal) x2 (ix2 e (0 : Fin 1)))).toNat (50000 - 1)
    = min (BitVec.toInt (wrapIdx 50000#32 (x2 (ix2 (1 : Fin 2) e)))).toNat (50000 - 1)
  rw [hw]

/-! ## The two rows side by side -/

/-- The lower half of edge `e`'s 256-long row is its source row. -/
theorem catLo (x0 : (⟨S100000x128, .f32⟩ : BufTy).Contents (Elt Ideal)) (x1 : (⟨S50000x128, .f32⟩ : BufTy).Contents (Elt Ideal))
    (x2 : (⟨S2x1000000, .i32⟩ : BufTy).Contents (Elt Ideal)) (e : Fin 1000000) (k : Fin 128) :
    val_main_v18 (F := Ideal) x0 x1 x2 (ix2 e (lo256 k)) = val_main_v10 (F := Ideal) x0 x2 (ix2 e k) := by
  unfold val_main_v18
  exact concatenate_pair_apply_left (s₁ := S1000000x128) (s₂ := S1000000x128) (1 : Fin 2) _ _ concatenates_S1000000x128_S1000000x128_S1000000x256_d1
    (ix2 e (lo256 k)) rfl (ix2 e k) (fun b => match b with | ⟨0, _⟩ => rfl | ⟨1, _⟩ => rfl)

/-- The upper half of edge `e`'s 256-long row is its destination row. -/
theorem catHi (x0 : (⟨S100000x128, .f32⟩ : BufTy).Contents (Elt Ideal)) (x1 : (⟨S50000x128, .f32⟩ : BufTy).Contents (Elt Ideal))
    (x2 : (⟨S2x1000000, .i32⟩ : BufTy).Contents (Elt Ideal)) (e : Fin 1000000) (k : Fin 128) :
    val_main_v18 (F := Ideal) x0 x1 x2 (ix2 e (hi256 k)) = val_main_v17 (F := Ideal) x1 x2 (ix2 e k) := by
  unfold val_main_v18
  exact concatenate_pair_apply_right (s₁ := S1000000x128) (s₂ := S1000000x128) (1 : Fin 2) _ _ concatenates_S1000000x128_S1000000x128_S1000000x256_d1
    (ix2 e (hi256 k)) rfl rfl (ix2 e k)
    (fun b hb => match b, hb with | ⟨0, _⟩, _ => rfl | ⟨1, _⟩, hb => absurd rfl hb)
    (Nat.add_comm k.val 128)

/-! ## The hidden layer -/

/-- Hidden unit `j` of edge `e`: the source row against the lower half of row `j` of the first layer's weights, plus
    the destination row against its upper half, plus the bias, cut off below at zero. The reference contracts the
    256-long row in one sum; it is the sum of its two halves. -/
theorem hidden (x0 : (⟨S100000x128, .f32⟩ : BufTy).Contents (Elt Ideal)) (x1 : (⟨S50000x128, .f32⟩ : BufTy).Contents (Elt Ideal))
    (x2 : (⟨S2x1000000, .i32⟩ : BufTy).Contents (Elt Ideal)) (x3 : (⟨S128x256, .f32⟩ : BufTy).Contents (Elt Ideal))
    (x4 : (⟨S128, .f32⟩ : BufTy).Contents (Elt Ideal)) (e : Fin 1000000) (j : Fin 128) :
    val_main_v24 (F := Ideal) x0 x1 x2 x3 x4 (ix2 e j)
      = max ((∑ k : Fin 128, x0 (ix2 (tableRow 100000 (by decide) 100000#32 (x2 (ix2 (0 : Fin 2) e))) k) * x3 (ix2 j (lo256 k)))
          + (∑ k : Fin 128, x1 (ix2 (tableRow 50000 (by decide) 50000#32 (x2 (ix2 (1 : Fin 2) e))) k) * x3 (ix2 j (hi256 k)))
          + x4 (ix1 j)) (Ideal.ofBits .f32 0x00000000#32) := by
  have hlo : ∀ k : Fin 128,
      val_main_v18 (F := Ideal) x0 x1 x2 (lidx_main_v20 (ix2 e j) (lo256 k))
          * val_main_v19 (F := Ideal) x3 (ridx_main_v20 (ix2 e j) (lo256 k))
        = x0 (ix2 (tableRow 100000 (by decide) 100000#32 (x2 (ix2 (0 : Fin 2) e))) k) * x3 (ix2 j (lo256 k)) := fun k => by
    have h1 : lidx_main_v20 (ix2 e j) (lo256 k) = ix2 e (lo256 k) := funext fun a => Fin.ext (by match a with | ⟨0, _⟩ => rfl | ⟨1, _⟩ => rfl)
    have h2 : idx_main_v19 (ridx_main_v20 (ix2 e j) (lo256 k)) = ix2 j (lo256 k) := funext fun a => Fin.ext (by match a with | ⟨0, _⟩ => rfl | ⟨1, _⟩ => rfl)
    rw [h1, catLo, srcRow, val_main_v19_apply, h2]
  have hhi : ∀ k : Fin 128,
      val_main_v18 (F := Ideal) x0 x1 x2 (lidx_main_v20 (ix2 e j) (hi256 k))
          * val_main_v19 (F := Ideal) x3 (ridx_main_v20 (ix2 e j) (hi256 k))
        = x1 (ix2 (tableRow 50000 (by decide) 50000#32 (x2 (ix2 (1 : Fin 2) e))) k) * x3 (ix2 j (hi256 k)) := fun k => by
    have h1 : lidx_main_v20 (ix2 e j) (hi256 k) = ix2 e (hi256 k) := funext fun a => Fin.ext (by match a with | ⟨0, _⟩ => rfl | ⟨1, _⟩ => rfl)
    have h2 : idx_main_v19 (ridx_main_v20 (ix2 e j) (hi256 k)) = ix2 j (hi256 k) := funext fun a => Fin.ext (by match a with | ⟨0, _⟩ => rfl | ⟨1, _⟩ => rfl)
    rw [h1, catHi, dstRow, val_main_v19_apply, h2]
  have hb : idx_main_v21 (idx_main_v22 (ix2 e j)) = ix1 j := funext fun a => Fin.ext (by match a with | ⟨0, _⟩ => rfl)
  rw [val_main_v24_apply, val_main_v23_apply, val_main_v20_apply, val_main_call0_v0_apply, val_main_call0_cst_apply,
    val_main_v22_apply, val_main_v21_apply, hb, sum_halves]
  exact congrArg₂ max (congrArg₂ (· + ·) (congrArg₂ (· + ·) (Finset.sum_congr rfl fun k _ => hlo k)
    (Finset.sum_congr rfl fun k _ => hhi k)) rfl) rfl

/-! ## The output layer -/

/-- The logit of edge `e`: its hidden units against the second layer's weights, plus the second bias. -/
theorem logit (x0 : (⟨S100000x128, .f32⟩ : BufTy).Contents (Elt Ideal)) (x1 : (⟨S50000x128, .f32⟩ : BufTy).Contents (Elt Ideal))
    (x2 : (⟨S2x1000000, .i32⟩ : BufTy).Contents (Elt Ideal)) (x3 : (⟨S128x256, .f32⟩ : BufTy).Contents (Elt Ideal))
    (x4 : (⟨S128, .f32⟩ : BufTy).Contents (Elt Ideal)) (x5 : (⟨S1x128, .f32⟩ : BufTy).Contents (Elt Ideal))
    (x6 : (⟨S1, .f32⟩ : BufTy).Contents (Elt Ideal)) (e : Fin 1000000) :
    val_main_v29 (F := Ideal) x0 x1 x2 x3 x4 x5 x6 (ix2 e (0 : Fin 1))
      = (∑ j : Fin 128, max ((∑ k : Fin 128, x0 (ix2 (tableRow 100000 (by decide) 100000#32 (x2 (ix2 (0 : Fin 2) e))) k) * x3 (ix2 j (lo256 k)))
          + (∑ k : Fin 128, x1 (ix2 (tableRow 50000 (by decide) 50000#32 (x2 (ix2 (1 : Fin 2) e))) k) * x3 (ix2 j (hi256 k)))
          + x4 (ix1 j)) (Ideal.ofBits .f32 0x00000000#32) * x5 (ix2 (0 : Fin 1) j)) + x6 (ix1 (0 : Fin 1)) := by
  have hj : ∀ j : Fin 128,
      val_main_v24 (F := Ideal) x0 x1 x2 x3 x4 (lidx_main_v26 (ix2 e (0 : Fin 1)) j)
          * val_main_v25 (F := Ideal) x5 (ridx_main_v26 (ix2 e (0 : Fin 1)) j)
        = max ((∑ k : Fin 128, x0 (ix2 (tableRow 100000 (by decide) 100000#32 (x2 (ix2 (0 : Fin 2) e))) k) * x3 (ix2 j (lo256 k)))
          + (∑ k : Fin 128, x1 (ix2 (tableRow 50000 (by decide) 50000#32 (x2 (ix2 (1 : Fin 2) e))) k) * x3 (ix2 j (hi256 k)))
          + x4 (ix1 j)) (Ideal.ofBits .f32 0x00000000#32) * x5 (ix2 (0 : Fin 1) j) := fun j => by
    have h1 : lidx_main_v26 (ix2 e (0 : Fin 1)) j = ix2 e j := funext fun a => Fin.ext (by match a with | ⟨0, _⟩ => rfl | ⟨1, _⟩ => rfl)
    have h2 : idx_main_v25 (ridx_main_v26 (ix2 e (0 : Fin 1)) j) = ix2 (0 : Fin 1) j := funext fun a => Fin.ext (by match a with | ⟨0, _⟩ => rfl | ⟨1, _⟩ => rfl)
    rw [h1, hidden, val_main_v25_apply, h2]
  have hb : idx_main_v27 (idx_main_v28 (ix2 e (0 : Fin 1))) = ix1 (0 : Fin 1) := funext fun a => Fin.ext (by match a with | ⟨0, _⟩ => rfl)
  rw [val_main_v29_apply, val_main_v26_apply, val_main_v28_apply, val_main_v27_apply, hb]
  exact congrArg₂ (· + ·) (Finset.sum_congr rfl fun j _ => hj j) rfl

/-! ## The reference is the specification -/

/-- The reference's result is `scores`: at edge `e` it divides one by one plus the exponential of minus the logit,
    which is the logistic function of the logit. -/
theorem ref_eq (x0 : (⟨S100000x128, .f32⟩ : BufTy).Contents (Elt Ideal)) (x1 : (⟨S50000x128, .f32⟩ : BufTy).Contents (Elt Ideal))
    (x2 : (⟨S2x1000000, .i32⟩ : BufTy).Contents (Elt Ideal)) (x3 : (⟨S128x256, .f32⟩ : BufTy).Contents (Elt Ideal))
    (x4 : (⟨S128, .f32⟩ : BufTy).Contents (Elt Ideal)) (x5 : (⟨S1x128, .f32⟩ : BufTy).Contents (Elt Ideal))
    (x6 : (⟨S1, .f32⟩ : BufTy).Contents (Elt Ideal)) :
    val_main_v36 (F := Ideal) x0 x1 x2 x3 x4 x5 x6 = scores x0 x1 x2 x3 x4 x5 x6 := by
  funext i
  obtain ⟨e, rfl⟩ : ∃ e : Fin 1000000, i = ix1 e := ⟨i 0, eq_ix1 i⟩
  have h36 : idx_main_v36 (ix1 e) = ix2 e (0 : Fin 1) := funext fun a => Fin.ext (by
    match a with
    | ⟨0, _⟩ => exact Nat.div_one _
    | ⟨1, _⟩ => rfl)
  rw [val_main_v36_apply, h36, val_main_v35_apply, val_main_v34_apply, val_main_cst_3_apply, val_main_v33_apply,
    val_main_v32_apply, val_main_cst_apply, val_main_v31_apply, val_main_v30_apply, logit, Ideal.ofBits_def,
    Ideal.ofBits_one_f32]
  rfl

end Cert.ReferenceIdeal.RefScore

end
-- ==== Proof.BodyScore.lean ====
/-
  One row of the decoder's block, read at an index.  The block's computation is three matrix products with two
  broadcast biases, a maximum against zero and a logistic; at row `p` of the block it is the edge score of the
  `p`-th rows of the two embedding blocks.  Each matrix product accumulates into a zero array, so at an output
  position it is the plain sum of products over the one contracted axis; that sum is re-indexed from the product's
  own contraction index set to `Fin 128`.
-/
import proofs.«138349_j46815143526428_2_alg».proof.Proof.Gen.KernelIdeal.Skeleton
import proofs.«138349_j46815143526428_2_alg».proof.Proof.EdgeScore
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyScore

open Idealize.ShloMosaic Idealize.ShloMosaic.ValueIdx Idealize.SL.Sem
open Cert.KernelIdeal Cert.KernelIdeal.Gen

/-! ## The operand indices of the two matrix products -/

/-- Row coordinate of the left operand's index in the wide product: the output's row. -/
theorem lhsW_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl
/-- Column coordinate of the left operand's index in the wide product: the contraction position. -/
theorem lhsW_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
/-- Row coordinate of the right operand's index in the wide product: the contraction position. -/
theorem rhsW_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
/-- Column coordinate of the right operand's index in the wide product: the output's column. -/
theorem rhsW_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The same four coordinates for the product with the one-column matrix. -/
theorem lhsC_0 (i : S16384x1.Idx) (q : dot_S16384x128_S128x1_S16384x1_1_0_0_1_n_n.contr.Idx) :
    (dot_S16384x128_S128x1_S16384x1_1_0_0_1_n_n.lhsIdx i q 0).val = (i 0).val := by
  unfold DotDims.lhsIdx
  rw [dif_neg (show ¬(0 : Fin S16384x128.rank) ∈ dot_S16384x128_S128x1_S16384x1_1_0_0_1_n_n.lhsBatch by decide),
    dif_pos (show (0 : Fin S16384x128.rank) ∈ dot_S16384x128_S128x1_S16384x1_1_0_0_1_n_n.lhsNonContracting by decide)]
  rfl
theorem lhsC_1 (i : S16384x1.Idx) (q : dot_S16384x128_S128x1_S16384x1_1_0_0_1_n_n.contr.Idx) :
    (dot_S16384x128_S128x1_S16384x1_1_0_0_1_n_n.lhsIdx i q 1).val = (q ⟨0, by decide⟩).val :=
  dot_S16384x128_S128x1_S16384x1_1_0_0_1_n_n.lhsIdx_val_of_single rfl i q
theorem rhsC_0 (i : S16384x1.Idx) (q : dot_S16384x128_S128x1_S16384x1_1_0_0_1_n_n.contr.Idx) :
    (dot_S16384x128_S128x1_S16384x1_1_0_0_1_n_n.rhsIdx i q 0).val = (q ⟨0, by decide⟩).val :=
  dot_S16384x128_S128x1_S16384x1_1_0_0_1_n_n.rhsIdx_val_of_single rfl i q
theorem rhsC_1 (i : S16384x1.Idx) (q : dot_S16384x128_S128x1_S16384x1_1_0_0_1_n_n.contr.Idx) :
    (dot_S16384x128_S128x1_S16384x1_1_0_0_1_n_n.rhsIdx i q 1).val = (i 1).val := by
  unfold DotDims.rhsIdx
  rw [dif_neg (show ¬(1 : Fin S128x1.rank) ∈ dot_S16384x128_S128x1_S16384x1_1_0_0_1_n_n.rhsBatch by decide),
    dif_pos (show (1 : Fin S128x1.rank) ∈ dot_S16384x128_S128x1_S16384x1_1_0_0_1_n_n.rhsNonContracting by decide)]
  rfl

/-! ## The two matrix products at an output position -/

/-- A [16384,128] × [128,128] product into the zero array, at `(p, j)`: row `p` of the left against column `j` of the right. -/
theorem matmulWide_apply (l : FVec Ideal S16384x128 .bf16) (r : FVec Ideal S128x128 .bf16) (p : Fin 16384) (j : Fin 128) :
    matmul (F := Ideal) dot_S16384x128_S128x128_S16384x128_1_0_0_1_n_n none l r (constant (F := Ideal) S16384x128 .f32 0x00000000#32) (ix2 p j)
      = ∑ k : Fin 128, l (ix2 p k) * r (ix2 k j) := by
  simp only [matmul]
  rw [Ideal.matmul_constant_zero_apply, ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 p j) ((contrEquiv1 dot_S16384x128_S128x128_S16384x128_1_0_0_1_n_n 128 rfl rfl).symm k) = ix2 p k :=
    funext fun a => Fin.ext (by
      match a with
      | ⟨0, _⟩ => exact lhsW_0 _ _
      | ⟨1, _⟩ => exact (lhsW_1 _ _).trans hk)
  have er : dot_S16384x128_S128x128_S16384x128_1_0_0_1_n_n.rhsIdx (ix2 p j) ((contrEquiv1 dot_S16384x128_S128x128_S16384x128_1_0_0_1_n_n 128 rfl rfl).symm k) = ix2 k j :=
    funext fun a => Fin.ext (by
      match a with
      | ⟨0, _⟩ => exact (rhsW_0 _ _).trans hk
      | ⟨1, _⟩ => exact rhsW_1 _ _)
  rw [el, er]

/-- A [16384,128] × [128,1] product into the zero array, at `(p, 0)`: row `p` of the left against the one column. -/
theorem matmulCol_apply (l : FVec Ideal S16384x128 .bf16) (r : FVec Ideal S128x1 .bf16) (p : Fin 16384) (c : Fin 1) :
    matmul (F := Ideal) dot_S16384x128_S128x1_S16384x1_1_0_0_1_n_n none l r (constant (F := Ideal) S16384x1 .f32 0x00000000#32) (ix2 p c)
      = ∑ k : Fin 128, l (ix2 p k) * r (ix2 k c) := by
  simp only [matmul]
  rw [Ideal.matmul_constant_zero_apply, ← Equiv.sum_comp (contrEquiv1 dot_S16384x128_S128x1_S16384x1_1_0_0_1_n_n 128 rfl rfl).symm]
  refine Finset.sum_congr rfl fun k _ => ?_
  have hk := contrEquiv1_symm_val dot_S16384x128_S128x1_S16384x1_1_0_0_1_n_n 128 rfl rfl k
  have el : dot_S16384x128_S128x1_S16384x1_1_0_0_1_n_n.lhsIdx (ix2 p c) ((contrEquiv1 dot_S16384x128_S128x1_S16384x1_1_0_0_1_n_n 128 rfl rfl).symm k) = ix2 p k :=
    funext fun a => Fin.ext (by
      match a with
      | ⟨0, _⟩ => exact lhsC_0 _ _
      | ⟨1, _⟩ => exact (lhsC_1 _ _).trans hk)
  have er : dot_S16384x128_S128x1_S16384x1_1_0_0_1_n_n.rhsIdx (ix2 p c) ((contrEquiv1 dot_S16384x128_S128x1_S16384x1_1_0_0_1_n_n 128 rfl rfl).symm k) = ix2 k c :=
    funext fun a => Fin.ext (by
      match a with
      | ⟨0, _⟩ => exact (rhsC_0 _ _).trans hk
      | ⟨1, _⟩ => exact rhsC_1 _ _)
  rw [el, er]

/-! ## The two bias rows, broadcast down the block -/

/-- The first layer's bias, made a one-row matrix and repeated on every row: at `(p, j)` it is entry `j`. -/
theorem biasRow_apply (b : FVec Ideal S128 .f32) (p : Fin 16384) (j : Fin 128) :
    broadcastTo S16384x128 (shapeCast S1x128 b shapeCasts_S128_S1x128) broadcasts_S1x128_S16384x128 (ix2 p j) = b (ix1 j) :=
  (broadcastTo_1b_ab_apply _ _ p j).trans (shapeCast_a_1a_apply b _ (0 : Fin 1) j)

/-- The second layer's bias, a single number repeated on every row. -/
theorem biasOne_apply (b : FVec Ideal S1 .f32) (p : Fin 16384) :
    broadcastTo S16384x1 (shapeCast S1x1 b shapeCasts_S1_S1x1) broadcasts_S1x1_S16384x1 (ix2 p (0 : Fin 1)) = b (ix1 (0 : Fin 1)) :=
  (broadcastTo_1b_ab_apply _ _ p (0 : Fin 1)).trans (shapeCast_a_1a_apply b _ (0 : Fin 1) (0 : Fin 1))

/-! ## The hidden layer -/

/-- The hidden layer of the block: both products, the bias, the maximum with zero, and the change of format
    (which keeps every extended real as it is). -/
def hidden (x0 x1 : Vec Ideal S16384x128 .bf16) (x2 x3 : Vec Ideal S128x128 .bf16) (x4 : Vec Ideal S128 .f32) :
    FVec Ideal S16384x128 .bf16 :=
  truncf .bf16
    (maximumf
      (addf
        (addf (matmul (F := Ideal) (φ₁ := .bf16) (φ₂ := .bf16) dot_S16384x128_S128x128_S16384x128_1_0_0_1_n_n none x0 x2 (constant (F := Ideal) S16384x128 .f32 0x00000000#32))
          (matmul (F := Ideal) (φ₁ := .bf16) (φ₂ := .bf16) dot_S16384x128_S128x128_S16384x128_1_0_0_1_n_n none x1 x3 (constant (F := Ideal) S16384x128 .f32 0x00000000#32)))
        (broadcastTo S16384x128 (shapeCast S1x128 x4 shapeCasts_S128_S1x128) broadcasts_S1x128_S16384x128))
      (broadcast S16384x128 (Scalar.ofBits (F := Ideal) .f32 0x00000000#32)))
    bitsLt_bf16_f32

/-- Hidden unit `j` of row `p`: the two 128-term sums and the bias, cut off below at zero. -/
theorem hidden_apply (x0 x1 : Vec Ideal S16384x128 .bf16) (x2 x3 : Vec Ideal S128x128 .bf16) (x4 : Vec Ideal S128 .f32)
    (p : Fin 16384) (j : Fin 128) :
    hidden x0 x1 x2 x3 x4 (ix2 p j)
      = max ((∑ k : Fin 128, x0 (ix2 p k) * x2 (ix2 k j)) + (∑ k : Fin 128, x1 (ix2 p k) * x3 (ix2 k j)) + x4 (ix1 j))
          (Ideal.ofBits .f32 0x00000000#32) := by
  unfold hidden
  rw [truncf_apply, maximumf_apply, addf_apply, addf_apply, matmulWide_apply, matmulWide_apply, biasRow_apply,
    broadcast_apply]
  rfl

/-! ## The block's result at a row -/

/-- A logistic of an array reads the logistic of the element. -/
theorem logistic_apply {s : Shape} {φ : FTy} (v : FVec Ideal s φ) (i : s.Idx) : logistic v i = Ideal.logistic (v i) := rfl

/-- The block's result is the logistic of the hidden layer's product with the second layer's column, plus its bias. -/
theorem pay_eq (x0 x1 : Vec Ideal S16384x128 .bf16) (x2 x3 : Vec Ideal S128x128 .bf16) (x4 : Vec Ideal S128 .f32)
    (x5 : Vec Ideal S128x1 .bf16) (x6 : Vec Ideal S1 .f32) :
    Gen.k0_pay1 (F := Ideal) x0 x1 x2 x3 x4 x5 x6
      = logistic (addf (matmul (F := Ideal) (φ₁ := .bf16) (φ₂ := .bf16) dot_S16384x128_S128x1_S16384x1_1_0_0_1_n_n none (hidden x0 x1 x2 x3 x4) x5 (constant (F := Ideal) S16384x1 .f32 0x00000000#32))
          (broadcastTo S16384x1 (shapeCast S1x1 x6 shapeCasts_S1_S1x1) broadcasts_S1x1_S16384x1)) := by
  unfold Gen.k0_pay1 hidden
  simp only [shapeCast_self]

/-- Row `p` of the block's result is the edge score of row `p` of the two embedding blocks. -/
theorem pay_apply (x0 x1 : Vec Ideal S16384x128 .bf16) (x2 x3 : Vec Ideal S128x128 .bf16) (x4 : Vec Ideal S128 .f32)
    (x5 : Vec Ideal S128x1 .bf16) (x6 : Vec Ideal S1 .f32) (p : Fin 16384) :
    Gen.k0_pay1 (F := Ideal) x0 x1 x2 x3 x4 x5 x6 (ix2 p (0 : Fin 1)) =
      Cert.EdgeScore.edgeScore (fun k => x0 (ix2 p k)) (fun k => x1 (ix2 p k)) (fun k j => x2 (ix2 k j)) (fun k j => x3 (ix2 k j))
        (fun j => x4 (ix1 j)) (fun j => x5 (ix2 j (0 : Fin 1))) (x6 (ix1 (0 : Fin 1))) := by
  rw [pay_eq, logistic_apply, addf_apply, matmulCol_apply, biasOne_apply]
  unfold Cert.EdgeScore.edgeScore
  simp only [hidden_apply]

end Cert.KernelIdeal.BodyScore

end
-- ==== Proof.RegionArrays.lean ====
/-
  What the kernel's one region finds in its seven input arrays, read at an index.

  Before the region the host lays the operands out: row 0 and row 1 of the index pairs become two columns of a
  million words, each lengthened by zeros to 62 blocks of 16384; a negative index word has the table's length
  added; the two embedding tables are gathered row by row at those words (clamped into the table); the first layer's
  weights are cut into their left and right halves and transposed, the second layer's weights transposed. Changes
  of float format are the identity on extended reals. So, for an edge `e` below the first million:
    • the source-row array at `(e, k)` is the source table at (the row index word `(0, e)` selects, `k`);
    • the destination-row array at `(e, k)` likewise, from index word `(1, e)`;
    • the left weights at `(k, j)` are `W1[j, k]`, the right weights `W1[j, 128 + k]`;
    • the second layer's column at `(j, 0)` is `W2[0, j]`.
  Rows past the first million read the zero word, and are never looked at by the result.
-/
import proofs.«138349_j46815143526428_2_alg».proof.Proof.Gen.KernelIdeal.Frame
import proofs.«138349_j46815143526428_2_alg».proof.Proof.EdgeScore
import proofs.«138349_j46815143526428_2_alg».proof.Proof.GatherRows
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.RegionArrays

open Cert.KernelIdeal Cert.KernelIdeal.Gen Idealize.ShloMosaic Idealize.ShloMosaic.TcCoe Idealize.SL.Sem Idealize.ShloMosaic.StableHlo
open Idealize.ShloMosaic.ValueIdx Cert.EdgeScore

variable (m : (ℓ : Loc nD τ sig) → Buf (Elt Ideal) ℓ)

/-- Row `r` of the index pairs, as one column of a million words, lengthened by zeros to a whole number of blocks. -/
def paddedCol (x2 : IVec S2x1000000 32) (off : Fin 2 → Nat) (h : S2x1000000.Slices off S1x1000000) : IVec S1015808 32 :=
  pad S1015808 ![0] ![15808] ![0] (shapeCast _ (extractStridedSlice S1x1000000 off x2 h) shapeCasts_S1x1000000_S1000000)
    (id (constantI S_ 32 0#32)) pads_S1000000_S1015808_0158080 h_S_

/-- The column of row indices the gather takes: a negative word has the table's length `n` added. -/
def wrappedCol (n : BitVec 32) (p : IVec S1015808 32) : IVec S1015808x1 32 :=
  broadcastInDim S1015808x1 ![0] bcast_S1015808_S1015808x1_0
    (select (cmpi .slt p (broadcastInDim S1015808 ![] bcast_S_S1015808 (constantI S_ 32 0#32)))
      (addi p (broadcastInDim S1015808 ![] bcast_S_S1015808 (constantI S_ 32 n))) p)

/-- Below the first million the lengthened column is the column. -/
theorem paddedCol_apply (x2 : IVec S2x1000000 32) (r : Fin 2) (off : Fin 2 → Nat) (hoff : off = ![r.val, 0])
    (h : S2x1000000.Slices off S1x1000000) (e : Fin 1015808) (he : e.val < 1000000) :
    paddedCol x2 off h (ix1 e) = x2 (ix2 r ⟨e.val, he⟩) := by
  subst hoff
  unfold paddedCol pad
  rw [dif_pos (by
    intro a
    match a with
    | ⟨0, _⟩ => exact ⟨Nat.zero_le _, Nat.mod_one _, by show (e.val - 0) / (0 + 1) < 1000000; simpa using he⟩)]
  refine Eq.trans (congrArg _ (?_ : _ = ix1 (⟨e.val, he⟩ : Fin 1000000))) ?_
  · funext a
    match a with
    | ⟨0, _⟩ => exact Fin.ext (by show (e.val - 0) / (0 + 1) = e.val; simp)
  refine (shapeCast_1a_a_apply _ shapeCasts_S1x1000000_S1000000 ⟨e.val, he⟩).trans ?_
  exact extractStridedSlice_apply _ x2 h _ (ix2 r ⟨e.val, he⟩) (fun a => by
    match a with
    | ⟨0, _⟩ => show r.val = r.val + 0; omega
    | ⟨1, _⟩ => show e.val = 0 + e.val; omega)

/-- The word the gather reads for edge `e` is the wrapped index word. -/
theorem wrappedCol_apply (n : BitVec 32) (p : IVec S1015808 32) (e : Fin 1015808) :
    wrappedCol n p (ix2 e (0 : Fin 1)) = wrapIdx n (p (ix1 e)) := by
  unfold wrappedCol
  refine (broadcastInDim_apply _ bcast_S1015808_S1015808x1_0 _ (ix2 e (0 : Fin 1)) (ix1 e) (fun a => by
    match a with
    | ⟨0, _⟩ => show e.val = if (1015808 : Nat) = 1 then 0 else e.val; rw [if_neg (by decide)])).trans ?_
  rfl

/-- The source rows as the region finds them. -/
theorem V_v14 (c : Dev nD) : (V m c main_v14 : S1015808x128.Idx → EReal) =
    Host.gather gather_S100000x128_S1015808x1_S1015808x128_1_0_n_n_0_1_1128
      (truncf (F := Ideal) .bf16 (m ((c : Thread nD τ).loc main_arg0)) bitsLt_bf16_f32)
      (wrappedCol 100000#32 (paddedCol (m ((c : Thread nD τ).loc main_arg2)) ![0, 0] slices_S2x1000000_S1x1000000_0_0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The source-row array at `(e, k)`, for an edge of the first million: the source table's row that index word
    `(0, e)` selects. -/
theorem V_v14_apply (c : Dev nD) (e : Fin 1015808) (he : e.val < 1000000) (k : Fin 128) :
    V m c main_v14 (ix2 e k) = m ((c : Thread nD τ).loc main_arg0)
      (ix2 (tableRow 100000 (by decide) 100000#32 (m ((c : Thread nD τ).loc main_arg2) (ix2 (0 : Fin 2) ⟨e.val, he⟩))) k) := by
  refine (congrFun (V_v14 m c) (ix2 e k)).trans ?_
  refine (Cert.GatherRows.gather_rows_apply (by decide) gather_S100000x128_S1015808x1_S1015808x128_1_0_n_n_0_1_1128
    rfl rfl rfl rfl rfl rfl rfl _ _ e k).trans ?_
  refine congrArg (fun r => m ((c : Thread nD τ).loc main_arg0) (ix2 r k)) (Fin.ext ?_)
  show min (wrappedCol _ _ (ix2 e (0 : Fin 1))).toInt.toNat (100000 - 1) = min (wrapIdx _ _).toInt.toNat (100000 - 1)
  rw [wrappedCol_apply, paddedCol_apply (m ((c : Thread nD τ).loc main_arg2)) (0 : Fin 2) ![0, 0] rfl _ e he]

/-- The destination rows as the region finds them. -/
theorem V_v21 (c : Dev nD) : (V m c main_v21 : S1015808x128.Idx → EReal) =
    Host.gather gather_S50000x128_S1015808x1_S1015808x128_1_0_n_n_0_1_1128
      (truncf (F := Ideal) .bf16 (m ((c : Thread nD τ).loc main_arg1)) bitsLt_bf16_f32)
      (wrappedCol 50000#32 (paddedCol (m ((c : Thread nD τ).loc main_arg2)) ![1, 0] slices_S2x1000000_S1x1000000_1_0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The destination-row array at `(e, k)`, for an edge of the first million: the destination table's row that index
    word `(1, e)` selects. -/
theorem V_v21_apply (c : Dev nD) (e : Fin 1015808) (he : e.val < 1000000) (k : Fin 128) :
    V m c main_v21 (ix2 e k) = m ((c : Thread nD τ).loc main_arg1)
      (ix2 (tableRow 50000 (by decide) 50000#32 (m ((c : Thread nD τ).loc main_arg2) (ix2 (1 : Fin 2) ⟨e.val, he⟩))) k) := by
  refine (congrFun (V_v21 m c) (ix2 e k)).trans ?_
  refine (Cert.GatherRows.gather_rows_apply (by decide) gather_S50000x128_S1015808x1_S1015808x128_1_0_n_n_0_1_1128
    rfl rfl rfl rfl rfl rfl rfl _ _ e k).trans ?_
  refine congrArg (fun r => m ((c : Thread nD τ).loc main_arg1) (ix2 r k)) (Fin.ext ?_)
  show min (wrappedCol _ _ (ix2 e (0 : Fin 1))).toInt.toNat (50000 - 1) = min (wrapIdx _ _).toInt.toNat (50000 - 1)
  rw [wrappedCol_apply, paddedCol_apply (m ((c : Thread nD τ).loc main_arg2)) (1 : Fin 2) ![1, 0] rfl _ e he]

/-- The left half of the first layer's weights, transposed, as the region finds it. -/
theorem V_v24 (c : Dev nD) : (V m c main_v24 : S128x128.Idx → EReal) =
    truncf (F := Ideal) .bf16 (transpose S128x128 [1, 0] (extractStridedSlice S128x128 ![0, 0] (m ((c : Thread nD τ).loc main_arg3))
      slices_S128x256_S128x128_0_0) transposes_S128x128_S128x128_1_0) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- At `(k, j)` it is `W1[j, k]`. -/
theorem V_v24_apply (c : Dev nD) (k j : Fin 128) :
    V m c main_v24 (ix2 k j) = m ((c : Thread nD τ).loc main_arg3) (ix2 j (lo256 k)) := by
  refine (congrFun (V_v24 m c) (ix2 k j)).trans ?_
  refine (truncf_apply _ bitsLt_bf16_f32 (ix2 k j)).trans ?_
  refine (transpose_ix2_apply _ transposes_S128x128_S128x128_1_0 k j).trans ?_
  exact slice2_axis1_apply 0 _ slices_S128x256_S128x128_0_0 j k (lo256 k) (Nat.zero_add _).symm

/-- The right half of the first layer's weights, transposed, as the region finds it. -/
theorem V_v27 (c : Dev nD) : (V m c main_v27 : S128x128.Idx → EReal) =
    truncf (F := Ideal) .bf16 (transpose S128x128 [1, 0] (extractStridedSlice S128x128 ![0, 128] (m ((c : Thread nD τ).loc main_arg3))
      slices_S128x256_S128x128_0_128) transposes_S128x128_S128x128_1_0) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- At `(k, j)` it is `W1[j, 128 + k]`. -/
theorem V_v27_apply (c : Dev nD) (k j : Fin 128) :
    V m c main_v27 (ix2 k j) = m ((c : Thread nD τ).loc main_arg3) (ix2 j (hi256 k)) := by
  refine (congrFun (V_v27 m c) (ix2 k j)).trans ?_
  refine (truncf_apply _ bitsLt_bf16_f32 (ix2 k j)).trans ?_
  refine (transpose_ix2_apply _ transposes_S128x128_S128x128_1_0 k j).trans ?_
  exact slice2_axis1_apply 128 _ slices_S128x256_S128x128_0_128 j k (hi256 k) rfl

/-- The second layer's weights, transposed to a column, as the region finds them. -/
theorem V_v29 (c : Dev nD) : (V m c main_v29 : S128x1.Idx → EReal) =
    truncf (F := Ideal) .bf16 (transpose S128x1 [1, 0] (m ((c : Thread nD τ).loc main_arg5)) transposes_S1x128_S128x1_1_0) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- At `(j, 0)` it is `W2[0, j]`. -/
theorem V_v29_apply (c : Dev nD) (j : Fin 128) :
    V m c main_v29 (ix2 j (0 : Fin 1)) = m ((c : Thread nD τ).loc main_arg5) (ix2 (0 : Fin 1) j) := by
  refine (congrFun (V_v29 m c) (ix2 j (0 : Fin 1))).trans ?_
  refine (truncf_apply _ bitsLt_bf16_f32 (ix2 j (0 : Fin 1))).trans ?_
  exact transpose_ix2_apply _ transposes_S1x128_S128x1_1_0 j (0 : Fin 1)

/-- Row `i` of the region's output, from the arrays the region holds: the edge score of row `i` of the two gathered-row
    arrays `zs`, `zd` under the weights `ws`, `wd`, `b1`, `w2`, `b2`. -/
def regionOut (zs zd : S1015808x128.Idx → EReal) (ws wd : S128x128.Idx → EReal) (b1 : S128.Idx → EReal)
    (w2 : S128x1.Idx → EReal) (b2 : S1.Idx → EReal) : S1015808x1.Idx → EReal := fun i =>
  edgeScore (fun k => zs (ix2 (i 0) k)) (fun k => zd (ix2 (i 0) k)) (fun k j => ws (ix2 k j)) (fun k j => wd (ix2 k j))
    (fun j => b1 (ix1 j)) (fun j => w2 (ix2 j (0 : Fin 1))) (b2 (ix1 (0 : Fin 1)))

end Cert.KernelIdeal.RegionArrays

end
-- ==== Proof.RegionOut.lean ====
/-
  The region's output array, as one function of its input arrays.

  The grid has 62 points; point `t` takes rows `16384·t … 16384·t + 16383` of the two gathered-row arrays, the whole
  of the four small operands, and writes rows `16384·t …` of the one-column output. Row `p` of what it writes is the
  edge score of row `p` of its two row blocks; so the output array after the run is, row by row, the edge score of
  the same row of the two gathered-row arrays: every row is in exactly one point's block.
-/
import proofs.«138349_j46815143526428_2_alg».proof.Proof.Gen.KernelIdeal.Frame
import proofs.«138349_j46815143526428_2_alg».proof.Proof.EdgeScore
import proofs.«138349_j46815143526428_2_alg».proof.Proof.BodyScore
import proofs.«138349_j46815143526428_2_alg».proof.Proof.RegionArrays
import Idealize.ShloMosaic.Lib.Pipeline.Value
import Idealize.ShloMosaic.Lib.ValueIdx

set_option maxRecDepth 16384

noncomputable section

namespace Cert.KernelIdeal.RegionOut

open Cert.KernelIdeal Cert.KernelIdeal.Gen Idealize.ShloMosaic Idealize.ShloMosaic.TcCoe Idealize.SL.Sem
open Idealize.ShloMosaic.Pipeline (Dat)
open Idealize.ShloMosaic.ValueIdx Cert.EdgeScore Cert.KernelIdeal.RegionArrays

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 62 points: the two row windows and the output move together, one block of
    rows per point; the small operands stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of point `t`'s block is row `16384·t + p` of the array. -/
abbrev rowOf (t : Fin cfg0.N) (p : Fin 16384) : Fin 1015808 :=
  ⟨t.val * 16384 + p.val, by have := t.isLt; have := p.isLt; have : cfg0.N = 62 := N_0; omega⟩

/-- The source-row block of point `t` at `(p, k)` is the source-row array at `(16384·t + p, k)`. -/
theorem blk0_apply (c : Dev nD) (t : Fin cfg0.N) (p : Fin 16384) (k : Fin 128) :
    iblk m c 0 t (ix2 p k) = V m c main_v14 (ix2 (rowOf t p) k) := by
  obtain ⟨e0, e1, -⟩ := index_facts t
  show V m c main_v14 (((cfg0.win 0).blk t).view.emb (ix2 p k)) = V m c main_v14 (ix2 (rowOf t p) k)
  refine congrArg (V m c main_v14) ?_
  funext a; apply Fin.ext
  match a with
  | ⟨0, _⟩ => show win0_0.index t (0 : Fin 2) * 16384 + 1 * p.val = t.val * 16384 + p.val; omega
  | ⟨1, _⟩ => show win0_0.index t (1 : Fin 2) * 128 + 1 * k.val = k.val; omega

/-- The destination-row block of point `t` at `(p, k)` is the destination-row array at `(16384·t + p, k)`. -/
theorem blk1_apply (c : Dev nD) (t : Fin cfg0.N) (p : Fin 16384) (k : Fin 128) :
    iblk m c 1 t (ix2 p k) = V m c main_v21 (ix2 (rowOf t p) k) := by
  obtain ⟨-, -, e0, e1, -⟩ := index_facts t
  show V m c main_v21 (((cfg0.win 1).blk t).view.emb (ix2 p k)) = V m c main_v21 (ix2 (rowOf t p) k)
  refine congrArg (V m c main_v21) ?_
  funext a; apply Fin.ext
  match a with
  | ⟨0, _⟩ => show win0_1.index t (0 : Fin 2) * 16384 + 1 * p.val = t.val * 16384 + p.val; omega
  | ⟨1, _⟩ => show win0_1.index t (1 : Fin 2) * 128 + 1 * k.val = k.val; omega

/-- Each small operand's block, at every point, is the whole operand. -/
theorem blk2_apply (c : Dev nD) (t : Fin cfg0.N) (k j : Fin 128) :
    iblk m c 2 t (ix2 k j) = V m c main_v24 (ix2 k j) := by
  obtain ⟨-, -, -, -, e0, e1, -⟩ := index_facts t
  show V m c main_v24 (((cfg0.win 2).blk t).view.emb (ix2 k j)) = V m c main_v24 (ix2 k j)
  refine congrArg (V m c main_v24) ?_
  funext a; apply Fin.ext
  match a with
  | ⟨0, _⟩ => show win0_2.index t (0 : Fin 2) * 128 + 1 * k.val = k.val; omega
  | ⟨1, _⟩ => show win0_2.index t (1 : Fin 2) * 128 + 1 * j.val = j.val; omega

theorem blk3_apply (c : Dev nD) (t : Fin cfg0.N) (k j : Fin 128) :
    iblk m c 3 t (ix2 k j) = V m c main_v27 (ix2 k j) := by
  obtain ⟨-, -, -, -, -, -, e0, e1, -⟩ := index_facts t
  show V m c main_v27 (((cfg0.win 3).blk t).view.emb (ix2 k j)) = V m c main_v27 (ix2 k j)
  refine congrArg (V m c main_v27) ?_
  funext a; apply Fin.ext
  match a with
  | ⟨0, _⟩ => show win0_3.index t (0 : Fin 2) * 128 + 1 * k.val = k.val; omega
  | ⟨1, _⟩ => show win0_3.index t (1 : Fin 2) * 128 + 1 * j.val = j.val; omega

theorem blk4_apply (c : Dev nD) (t : Fin cfg0.N) (j : Fin 128) :
    iblk m c 4 t (ix1 j) = V m c main_arg4 (ix1 j) := by
  obtain ⟨-, -, -, -, -, -, -, -, e0, -⟩ := index_facts t
  show V m c main_arg4 (((cfg0.win 4).blk t).view.emb (ix1 j)) = V m c main_arg4 (ix1 j)
  refine congrArg (V m c main_arg4) ?_
  funext a; apply Fin.ext
  match a with
  | ⟨0, _⟩ => show win0_4.index t (0 : Fin 1) * 128 + 1 * j.val = j.val; omega

theorem blk5_apply (c : Dev nD) (t : Fin cfg0.N) (j : Fin 128) :
    iblk m c 5 t (ix2 j (0 : Fin 1)) = V m c main_v29 (ix2 j (0 : Fin 1)) := by
  obtain ⟨-, -, -, -, -, -, -, -, -, e0, e1, -⟩ := index_facts t
  show V m c main_v29 (((cfg0.win 5).blk t).view.emb (ix2 j (0 : Fin 1))) = V m c main_v29 (ix2 j (0 : Fin 1))
  refine congrArg (V m c main_v29) ?_
  funext a; apply Fin.ext
  match a with
  | ⟨0, _⟩ => show win0_5.index t (0 : Fin 2) * 128 + 1 * j.val = j.val; omega
  | ⟨1, _⟩ => show win0_5.index t (1 : Fin 2) * 1 + 1 * 0 = 0; omega

theorem blk6_apply (c : Dev nD) (t : Fin cfg0.N) :
    iblk m c 6 t (ix1 (0 : Fin 1)) = V m c main_arg6 (ix1 (0 : Fin 1)) := by
  obtain ⟨-, -, -, -, -, -, -, -, -, -, -, e0, -⟩ := index_facts t
  show V m c main_arg6 (((cfg0.win 6).blk t).view.emb (ix1 (0 : Fin 1))) = V m c main_arg6 (ix1 (0 : Fin 1))
  refine congrArg (V m c main_arg6) ?_
  funext a; apply Fin.ext
  match a with
  | ⟨0, _⟩ => show win0_6.index t (0 : Fin 1) * 1 + 1 * 0 = 0; omega

/-- Row `p` of point `t`'s output block sits at row `16384·t + p` of the output array. -/
theorem out_emb (t : Fin cfg0.N) (p : Fin 16384) :
    ((cfg0.win 7).blk t).view.emb (ix2 p (0 : Fin 1)) = ix2 (rowOf t p) (0 : Fin 1) := by
  obtain ⟨-, -, -, -, -, -, -, -, -, -, -, -, e0, e1⟩ := index_facts t
  funext a; apply Fin.ext
  match a with
  | ⟨0, _⟩ => show win0_7.index t (0 : Fin 2) * 16384 + 1 * p.val = t.val * 16384 + p.val; omega
  | ⟨1, _⟩ => show win0_7.index t (1 : Fin 2) * 1 + 1 * 0 = 0; omega

/-- What point `t` writes back is block `t` of the row-by-row edge scores of the arrays the region holds. -/
theorem flushed_eq (c : Dev nD) (t : Fin cfg0.N) :
    (dats m 0 c).flushed 7 t = ((cfg0.win 7).blk t).view.read (Elt Ideal)
      (regionOut (V m c main_v14) (V m c main_v21) (V m c main_v24) (V m c main_v27) (V m c main_arg4) (V m c main_v29) (V m c main_arg6)) := by
  show (cfg0.win 7).cut (grid0.coords t) ((dats m 0 c).after 7 t) = _
  rw [after0_7]
  unfold out0_7
  rw [View.canon_unit_zero zero2]
  simp only [View.ld_unit_zero (S := S16384x128) zero2, View.ld_unit_zero (S := S128x128) zero2, View.ld_unit_zero (S := S128) zero1,
    View.ld_unit_zero (S := S128x1) zero2, View.ld_unit_zero (S := S1) zero1]
  funext y
  obtain ⟨p, q, rfl⟩ : ∃ (p : Fin 16384) (q : Fin 1), y = ix2 p q := ⟨y 0, y 1, eq_ix2 y⟩
  obtain rfl : q = 0 := Subsingleton.elim _ _
  show k0_pay1 (F := Ideal) (iblk m c 0 t) (iblk m c 1 t) (iblk m c 2 t) (iblk m c 3 t) (iblk m c 4 t) (iblk m c 5 t) (iblk m c 6 t) (ix2 p (0 : Fin 1))
    = regionOut (V m c main_v14) (V m c main_v21) (V m c main_v24) (V m c main_v27) (V m c main_arg4) (V m c main_v29) (V m c main_arg6)
        (((cfg0.win 7).blk t).view.emb (ix2 p (0 : Fin 1)))
  refine (Cert.KernelIdeal.BodyScore.pay_apply (iblk m c 0 t) (iblk m c 1 t) (iblk m c 2 t) (iblk m c 3 t) (iblk m c 4 t) (iblk m c 5 t) (iblk m c 6 t) p).trans ?_
  rw [out_emb]
  unfold regionOut
  refine congr (congr (congr (congr (congr (congr (congrArg edgeScore ?_) ?_) ?_) ?_) ?_) ?_) ?_
  · funext k; exact blk0_apply m c t p k
  · funext k; exact blk1_apply m c t p k
  · funext k j; exact blk2_apply m c t k j
  · funext k j; exact blk3_apply m c t k j
  · funext j; exact blk4_apply m c t j
  · funext j; exact blk5_apply m c t j
  · exact blk6_apply m c t

/-- An index of the output array is in point `t`'s block iff each coordinate is in the block's range on its axis. -/
theorem mem_blk (t : Fin cfg0.N) (i : S1015808x1.Idx) :
    i ∈ ((cfg0.win 7).blk t).view.set ↔ ∀ a : Fin 2, win0_7.index t a * S16384x1.size a ≤ (i a).val
      ∧ (i a).val < win0_7.index t a * S16384x1.size a + S16384x1.size a := by
  show i ∈ ((View.whole main_v30).slice (win0_7.rect t)).set ↔ _
  rw [View.set_slice_whole, Rect.mem_set_unit]
  exact Iff.rfl

/-- Every row of the output is in some point's block: row `r` in that of point `r / 16384`. -/
theorem cover (i : S1015808x1.Idx) :
    ∃ t : Fin cfg0.N, (cfg0.win 7).flush t = true ∧ i ∈ ((cfg0.win 7).blk t).view.set := by
  have hi0 : (i 0).val < 1015808 := (i 0).isLt
  have hi1 : (i 1).val < 1 := (i 1).isLt
  have hN : cfg0.N = 62 := N_0
  obtain ⟨t, ht⟩ : ∃ t : Fin cfg0.N, t.val = (i 0).val / 16384 := ⟨⟨(i 0).val / 16384, by omega⟩, rfl⟩
  obtain ⟨-, -, -, -, -, -, -, -, -, -, -, -, e0, e1⟩ := index_facts t
  refine ⟨t, flush0_7 t, ?_⟩
  rw [mem_blk]
  intro a
  match a with
  | ⟨0, _⟩ =>
    show win0_7.index t (0 : Fin 2) * 16384 ≤ (i 0).val ∧ (i 0).val < win0_7.index t (0 : Fin 2) * 16384 + 16384
    omega
  | ⟨1, _⟩ =>
    show win0_7.index t (1 : Fin 2) * 1 ≤ (i 1).val ∧ (i 1).val < win0_7.index t (1 : Fin 2) * 1 + 1
    omega

/-- The output array after the run: row by row, the edge score of the same row of the arrays the region holds. -/
theorem final (c : Dev nD) : (dats m 0 c).arrAt 7 cfg0.N =
    regionOut (V m c main_v14) (V m c main_v21) (V m c main_v24) (V m c main_v27) (V m c main_arg4) (V m c main_v29) (V m c main_arg6) :=
  (dats m 0 c).arrAt_eq_of_cover 7 _ (fun t _ => flushed_eq m c t) cover

end Cert.KernelIdeal.RegionOut

end
-- ==== Proof.TailScore.lean ====
/-
  After its one region the kernel's host keeps the first million rows of the one-column output and drops the unit
  axis. Row `e` of what is left is row `e` of the region's output, the edge score of row `e` of the arrays the region
  holds; for an edge of the first million those arrays hold the two table rows its index words select and the weights
  in the arrangement the score is written over, so what is left is the specification.
-/
import proofs.«138349_j46815143526428_2_alg».proof.Proof.RegionArrays
import Idealize.ShloMosaic.Lib.ValueLayout
import Idealize.ShloMosaic.Lib.Pipeline.Value

noncomputable section

namespace Cert.KernelIdeal.TailScore

open Cert.KernelIdeal Cert.KernelIdeal.Gen Cert.KernelIdeal.RegionArrays Cert.EdgeScore Idealize.ShloMosaic
  Idealize.ShloMosaic.TcCoe Idealize.SL.Sem Idealize.ShloMosaic.ValueIdx

variable (m : (ℓ : Loc nD τ sig) → Buf (Elt Ideal) ℓ)

/-- An `[a, 1]` array cast to `[a]` reads, at `i`, the operand at `(i, 0)`: both have row-major position `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The edge score depends on its seven arguments only. -/
theorem edgeScore_congr {zs zs' zd zd' : Fin 128 → EReal} {ws ws' wd wd' : Fin 128 → Fin 128 → EReal}
    {b1 b1' w2 w2' : Fin 128 → EReal} {b2 b2' : EReal} (h1 : zs = zs') (h2 : zd = zd') (h3 : ws = ws') (h4 : wd = wd')
    (h5 : b1 = b1') (h6 : w2 = w2') (h7 : b2 = b2') :
    edgeScore zs zd ws wd b1 w2 b2 = edgeScore zs' zd' ws' wd' b1' w2' b2' := by
  subst h1 h2 h3 h4 h5 h6 h7
  rfl

/-- What the host keeps of the region's output is the specification. -/
theorem tail_eq (c : Dev nD) :
    shapeCast S1000000 (extractStridedSlice S1000000x1 ![0, 0]
        (regionOut (V m c main_v14) (V m c main_v21) (V m c main_v24) (V m c main_v27) (V m c main_arg4) (V m c main_v29)
          (V m c main_arg6))
        slices_S1015808x1_S1000000x1_0_0) shapeCasts_S1000000x1_S1000000
      = scores (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  funext i
  obtain ⟨e, rfl⟩ : ∃ e : Fin 1000000, i = ix1 e := ⟨i 0, eq_ix1 i⟩
  have he : e.val < 1015808 := by have := e.isLt; omega
  -- the cast reads the column at `(e, 0)`, the cut reads the region's output at row `e`
  refine (shapeCast_a1_a_apply _ shapeCasts_S1000000x1_S1000000 e).trans ?_
  refine (slice2_axis0_apply 0 _ slices_S1015808x1_S1000000x1_0_0 e (0 : Fin 1) (⟨e.val, he⟩ : Fin 1015808)
    (Nat.zero_add _).symm).trans ?_
  -- row `e` of each array the region holds
  have h1 : (fun k : Fin 128 => V m c main_v14 (ix2 (⟨e.val, he⟩ : Fin 1015808) k))
      = fun k => (m ((c : Thread nD τ).loc main_arg0))
          (ix2 (tableRow 100000 (by decide) 100000#32 ((m ((c : Thread nD τ).loc main_arg2)) (ix2 (0 : Fin 2) e))) k) :=
    funext fun k => V_v14_apply m c ⟨e.val, he⟩ e.isLt k
  have h2 : (fun k : Fin 128 => V m c main_v21 (ix2 (⟨e.val, he⟩ : Fin 1015808) k))
      = fun k => (m ((c : Thread nD τ).loc main_arg1))
          (ix2 (tableRow 50000 (by decide) 50000#32 ((m ((c : Thread nD τ).loc main_arg2)) (ix2 (1 : Fin 2) e))) k) :=
    funext fun k => V_v21_apply m c ⟨e.val, he⟩ e.isLt k
  have h3 : (fun k j : Fin 128 => V m c main_v24 (ix2 k j))
      = fun k j => (m ((c : Thread nD τ).loc main_arg3)) (ix2 j (lo256 k)) :=
    funext fun k => funext fun j => V_v24_apply m c k j
  have h4 : (fun k j : Fin 128 => V m c main_v27 (ix2 k j))
      = fun k j => (m ((c : Thread nD τ).loc main_arg3)) (ix2 j (hi256 k)) :=
    funext fun k => funext fun j => V_v27_apply m c k j
  have h5 : (fun j : Fin 128 => V m c main_arg4 (ix1 j)) = fun j => (m ((c : Thread nD τ).loc main_arg4)) (ix1 j) := by
    rw [V_main_arg4]
  have h6 : (fun j : Fin 128 => V m c main_v29 (ix2 j (0 : Fin 1)))
      = fun j => (m ((c : Thread nD τ).loc main_arg5)) (ix2 (0 : Fin 1) j) :=
    funext fun j => V_v29_apply m c j
  have h7 : V m c main_arg6 (ix1 (0 : Fin 1)) = (m ((c : Thread nD τ).loc main_arg6)) (ix1 (0 : Fin 1)) := by
    rw [V_main_arg6]
  exact edgeScore_congr h1 h2 h3 h4 h5 h6 h7

end Cert.KernelIdeal.TailScore

end
-- ==== Proof.KernelRun.lean ====
/-
  The whole program's run with its result named.  The region writes its output array (one score per padded edge row,
  1015808 of them); the two host lines after the region keep the first 1000000 rows and flatten the column to a
  vector.  So once the output array's final contents are known to be `X`, the result buffer holds the flattened first
  million rows of `X`, and the seven argument buffers end as they were launched.
-/
import proofs.«138349_j46815143526428_2_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.KernelRun

open Cert.KernelIdeal Cert.KernelIdeal.Gen Idealize.ShloMosaic Idealize.ShloMosaic.TcCoe Idealize.SL.Sem
open Idealize.ShloMosaic.StableHlo
open Idealize.ShloMosaic.Pipeline (Dat)

section AnyInstance

variable {F : FTy → Type} [FloatOps F]
variable (m : (ℓ : Loc nD τ sig) → Buf (Elt F) ℓ) (ρ : Dev nD → PrngReg)

/-- What the lines after the region leave in the result buffer: the output array's final contents `X c`, its first
    million rows, flattened.  The output array is the eighth window's, and no line after the region writes it. -/
theorem result_eq (X : (c : Dev nD) → S1015808x1.Idx → F .f32)
    (hfinal : ∀ c, (dats m 0 c).arrAt 7 cfg0.N = X c) (c : Dev nD) :
    Pipeline.afterTail₀ cfgs (dats m) 0 (V0 m) [hostOps1] c main_v32
      = shapeCast S1000000 (extractStridedSlice S1000000x1 ![0, 0] (X c) slices_S1015808x1_S1000000x1_0_0)
          shapeCasts_S1000000x1_S1000000 := by
  unfold Pipeline.afterTail₀
  show StableHlo.after hostOps1 _ (Proc.devRef .tc main_v32) = _
  after_results
  have e : Pipeline.withArrays (cfgs 0).spec c (V0 m c) (fun w => (dats m 0 c).arrAt w (cfgs 0).N)
      (Proc.devRef .tc main_v30) = X c :=
    (Pipeline.withArrays_arr spec0 launch0.win.arr_inj c _ _ 7).trans (hfinal c)
  rw [e]
  rfl

/-- The run, at any float instance: the result buffer at the flattened first million rows of the output array's final
    contents, the arguments unchanged. -/
theorem run_of_final_any (X : (c : Dev nD) → S1015808x1.Idx → F .f32)
    (hfinal : ∀ c, (dats m 0 c).arrAt 7 cfg0.N = X c) :
    θ_run defs (onTc (τ := τ) (main (F := F))) ⟨m, fun _ => 0, ρ⟩ (fun r => ∀ c : Dev nD,
      r.2.mem ((c.tc : Thread nD τ).loc main_v32)
        = shapeCast S1000000 (extractStridedSlice S1000000x1 ![0, 0] (X c) slices_S1015808x1_S1000000x1_0_0)
            shapeCasts_S1000000x1_S1000000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v32 (Pipeline.mem_restRefs_of main_v32 (by decide) (by decide))).trans (result_eq m X hfinal c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩)
    (run_main m ρ)

end AnyInstance

/-- The same at the extended reals, the output array's final contents given as a function into `EReal`. -/
theorem run_of_final (m : (ℓ : Loc nD τ sig) → Buf (Elt Ideal) ℓ) (ρ : Dev nD → PrngReg)
    (X : (c : Dev nD) → S1015808x1.Idx → EReal)
    (hfinal : ∀ c, (dats m 0 c).arrAt 7 cfg0.N = X c) :
    θ_run defs (onTc (τ := τ) (main (F := Ideal))) ⟨m, fun _ => 0, ρ⟩ (fun r => ∀ c : Dev nD,
      r.2.mem ((c.tc : Thread nD τ).loc main_v32)
        = shapeCast S1000000 (extractStridedSlice S1000000x1 ![0, 0] (X c) slices_S1015808x1_S1000000x1_0_0)
            shapeCasts_S1000000x1_S1000000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of_final_any (F := Ideal) m ρ X hfinal

end Cert.KernelIdeal.KernelRun

end
-- ==== Proof.lean ====
/-
  The edge decoder's kernel computes, for each of a million edges, the same extended real as its reference.

  Both programs gather a source row and a destination row per edge from two embedding tables (an index word is read
  signed, a negative one has the table's length added, and the result is clamped into the table), apply a first layer
  `relu(z · W1ᵀ + b1)` to the 256-long concatenation `z` of the two rows, a second layer `· W2ᵀ + b2`, and the logistic
  function. The reference does it on whole arrays; the kernel lengthens the edge list by zeros to 62 blocks of 16384
  edges, gathers, lets a grid of 62 points each score one block — with the 256-wide contraction split into the two
  128-wide ones over the left and the right half of `W1` — and keeps the first million scores.

  On the extended reals a change of float format is the identity, the contraction over 256 terms is the sum of its two
  halves (addition is commutative and associative there), and the logistic function is `1 / (1 + e^(-x))` by definition;
  so both results are `EdgeScore.scores` of the argument arrays, index by index. The precondition is never opened: no
  step needs finiteness. The kernel has no rewritten operation, so it is its own idealization.
-/
import proofs.«138349_j46815143526428_2_alg».proof.Defs
import proofs.«138349_j46815143526428_2_alg».proof.Proof.Gen.Kernel
import proofs.«138349_j46815143526428_2_alg».proof.Proof.Gen.Kernel.Skeleton
import proofs.«138349_j46815143526428_2_alg».proof.Proof.Gen.Kernel.Launch
import proofs.«138349_j46815143526428_2_alg».proof.Proof.Gen.Kernel.Points
import proofs.«138349_j46815143526428_2_alg».proof.Proof.Gen.Kernel.Frame
import proofs.«138349_j46815143526428_2_alg».proof.Proof.Gen.KernelIdeal
import proofs.«138349_j46815143526428_2_alg».proof.Proof.Gen.KernelIdeal.Skeleton
import proofs.«138349_j46815143526428_2_alg».proof.Proof.Gen.KernelIdeal.Launch
import proofs.«138349_j46815143526428_2_alg».proof.Proof.Gen.KernelIdeal.Points
import proofs.«138349_j46815143526428_2_alg».proof.Proof.Gen.KernelIdeal.Frame
import proofs.«138349_j46815143526428_2_alg».proof.Proof.Gen.ReferenceIdeal
import proofs.«138349_j46815143526428_2_alg».proof.Proof.Gen.ReferenceIdeal.Run
import proofs.«138349_j46815143526428_2_alg».proof.Proof.Gen.ReferenceIdeal.Read
import proofs.«138349_j46815143526428_2_alg».proof.Proof.Gen.Pre_finite_inputs
import proofs.«138349_j46815143526428_2_alg».proof.Proof.EdgeScore
import proofs.«138349_j46815143526428_2_alg».proof.Proof.RefScore
import proofs.«138349_j46815143526428_2_alg».proof.Proof.RegionOut
import proofs.«138349_j46815143526428_2_alg».proof.Proof.TailScore
import proofs.«138349_j46815143526428_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

section KernelSide
open Cert.KernelIdeal

/-- The kernel's run on the extended reals ends with its result at the edge scores of its arguments: the region's
    output array is the row-by-row score of the arrays the region holds, and the first million rows of that, read
    through the host's layout before the region, are the scores of the arguments. -/
theorem kernel_scores (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = Cert.EdgeScore.scores (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (TailScore.tail_eq m c), (h c).2⟩)
    (KernelRun.run_of_final m ρ _ (RegionOut.final m))

end KernelSide

/-- From memories that agree on the arguments the two programs end with equal results: both are the edge scores. -/
theorem algebraic : Cert.algebraic_KernelIdeal_ReferenceIdeal := by
  intro m ρ m' ρ' _ hagree
  refine ⟨_, kernel_scores m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefScore.ref_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
